-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel

variable [Facts]

def fn {F : FTy → Type} [FloatOps F] (main_arg0 : FVec F S2x8x2048x64 .f32) (main_arg1 : FVec F S2x8x2048x64 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  main_v8
-- ==== Kernel.lean ====
abbrev S2x8x2048x64 : Shape := ⟨4, ![2, 8, 2048, 64]⟩
abbrev S2x8x2048x128 : Shape := ⟨4, ![2, 8, 2048, 128]⟩
abbrev S16x2048x128 : Shape := ⟨3, ![16, 2048, 128]⟩
abbrev S16x2048x2048 : Shape := ⟨3, ![16, 2048, 2048]⟩
abbrev S1x1024x128 : Shape := ⟨3, ![1, 1024, 128]⟩
abbrev S1x2048x128 : Shape := ⟨3, ![1, 2048, 128]⟩
abbrev S1x1024x2048 : Shape := ⟨3, ![1, 1024, 2048]⟩
abbrev S1024x128 : Shape := ⟨2, ![1024, 128]⟩
abbrev S2048x128 : Shape := ⟨2, ![2048, 128]⟩
abbrev S1024x2048 : Shape := ⟨2, ![1024, 2048]⟩
abbrev S2x8x2048x2048 : Shape := ⟨4, ![2, 8, 2048, 2048]⟩

abbrev nBuf : Space → Nat
  | .hbm => 14
  | .vmem => 6
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x64, .f32⟩
  | .hbm, ⟨4, _⟩ => ⟨S2x8x2048x128, .f32⟩
  | .hbm, ⟨5, _⟩ => ⟨S2x8x2048x128, .bf16⟩
  | .hbm, ⟨6, _⟩ => ⟨S2x8x2048x64, .f32⟩
  | .hbm, ⟨7, _⟩ => ⟨S2x8x2048x64, .f32⟩
  | .hbm, ⟨8, _⟩ => ⟨S2x8x2048x128, .f32⟩
  | .hbm, ⟨9, _⟩ => ⟨S2x8x2048x128, .bf16⟩
  | .hbm, ⟨10, _⟩ => ⟨S16x2048x128, .bf16⟩
  | .hbm, ⟨11, _⟩ => ⟨S16x2048x128, .bf16⟩
  | .hbm, ⟨12, _⟩ => ⟨S16x2048x2048, .f32⟩
  | .hbm, ⟨13, _⟩ => ⟨S2x8x2048x2048, .f32⟩
  | .local _ .vmem, ⟨0, _⟩ => ⟨S1x1024x128, .bf16⟩
  | .local _ .vmem, ⟨1, _⟩ => ⟨S1x1024x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x1024x2048, .f32⟩
  | .local _ .vmem, ⟨5, _⟩ => ⟨S1x1024x2048, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  concatenates_S2x8x2048x64_S2x8x2048x64_S2x8x2048x128_d3 : Shape.Concatenates [S2x8x2048x64, S2x8x2048x64] S2x8x2048x128 3
  bitsLt_bf16_f32 : FTy.bits .bf16 < FTy.bits .f32
  shapeCasts_S2x8x2048x128_S16x2048x128 : S2x8x2048x128.ShapeCasts S16x2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S16x2048x2048_S2x8x2048x2048 : S16x2048x2048.ShapeCasts S2x8x2048x2048
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S16x2048x128.size a
  hwx0_0 : ∀ i : grid0.Coords, EltTy.bits .bf16 = 32 ∨ (Rect.block (s := S16x2048x128) S1x1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .bf16 = 32 ∨ (Rect.block (s := S16x2048x128) S1x2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S16x2048x2048.size a
  hwx0_2 : ∀ i : grid0.Coords, EltTy.bits .f32 = 32 ∨ (Rect.block (s := S16x2048x2048) S1x1024x2048.size (cc0_transform_2 i) (hinb0_2 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v8) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x8x2048x64 : Shape := ⟨4, ![2, 8, 2048, 64]⟩
abbrev S2x8x2048x2048 : Shape := ⟨4, ![2, 8, 2048, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x64, .f32⟩
  | .hbm, ⟨4, _⟩ => ⟨S2x8x2048x64, .f32⟩
  | .hbm, ⟨5, _⟩ => ⟨S2x8x2048x64, .f32⟩
  | .hbm, ⟨6, _⟩ => ⟨S2x8x2048x2048, .f32⟩
  | .hbm, ⟨7, _⟩ => ⟨S2x8x2048x2048, .f32⟩
  | .hbm, ⟨8, _⟩ => ⟨S2x8x2048x2048, .f32⟩
  | .hbm, ⟨9, _⟩ => ⟨S_, .f32⟩
  | .hbm, ⟨10, _⟩ => ⟨S2x8x2048x2048, .f32⟩
  | .hbm, ⟨11, _⟩ => ⟨S2x8x2048x2048, .f32⟩
  | .hbm, ⟨12, _⟩ => ⟨S_, .f32⟩
  | .hbm, ⟨13, _⟩ => ⟨S2x8x2048x2048, .f32⟩
  | .hbm, ⟨14, _⟩ => ⟨S2x8x2048x2048, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S_S2x8x2048x2048 : S_.BroadcastsInDim S2x8x2048x2048 (![] : Fin 0 → Fin S2x8x2048x2048.rank)
  dot_S2x8x2048x64_S2x8x2048x64_S2x8x2048x2048_3_3_2_2_01_01_wf : DotDims.WF S2x8x2048x64 S2x8x2048x64 S2x8x2048x2048 [3] [3] [2] [2] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf

class Facts : Prop extends Facts₀ where

variable [Facts]
-- ==== Proof.Coherence.lean ====
/-
  The phase coherence of two arrays of phases, q and k of shape [2, 8, 2048, 64]: at (b, h, i, j)

      ( Σ_d cos q[b,h,i,d] · cos k[b,h,j,d]  +  Σ_d sin q[b,h,i,d] · sin k[b,h,j,d] ) · 1/64 ,

  d over the 64 harmonics, on the extended reals. Two arrangements of this number meet here. One contracts a single
  axis of 128: the cosines and the sines of a row laid side by side, first the 64 cosines and then the 64 sines, for q and
  for k alike, so that the 128 products are the 64 cosine products followed by the 64 sine products (`sum_glue`). The
  other divides the sum by 64 and then by 1, which on every extended real is the product with 1/64 (`div_64_div_one`).
  Only associativity and commutativity of the sum are used, and the quotient law holds at the infinities too: nothing
  here asks the phases to be finite.
-/
import Idealize.ShloMosaic.PureOps.Ideal
import Idealize.ShloMosaic.Lib.ValueIdx

noncomputable section

namespace Cert.Coherence

open Idealize.ShloMosaic Idealize.ShloMosaic.ValueIdx

/-- Two rows of 64 laid side by side as one row of 128. -/
def glue (a a' : Fin 64 → EReal) (k : Fin 128) : EReal :=
  if h : k.val < 64 then a ⟨k.val, h⟩ else a' ⟨k.val - 64, by have := k.isLt; omega⟩

theorem glue_left (a a' : Fin 64 → EReal) (d : Fin 64) : glue a a' (Fin.castAdd 64 d) = a d := by
  unfold glue
  rw [dif_pos (show (Fin.castAdd 64 d).val < 64 from d.isLt)]
  rfl

theorem glue_right (a a' : Fin 64 → EReal) (d : Fin 64) : glue a a' (Fin.natAdd 64 d) = a' d := by
  unfold glue
  rw [dif_neg (show ¬ (Fin.natAdd 64 d).val < 64 from by simp)]
  congr 1
  apply Fin.ext
  simp

/-- The 128 products of two glued rows are the 64 products of the left halves, then the 64 of the right halves. -/
theorem sum_glue (a a' b b' : Fin 64 → EReal) :
    ∑ k : Fin 128, glue a a' k * glue b b' k = (∑ d : Fin 64, a d * b d) + ∑ d : Fin 64, a' d * b' d := by
  refine (Fin.sum_univ_add (a := 64) (b := 64) fun k : Fin (64 + 64) => glue a a' k * glue b b' k).trans ?_
  simp only [glue_left, glue_right]

/-- Dividing by 64 and then by 1 is multiplying by 1/64, on every extended real. -/
theorem div_64_div_one (x : EReal) :
    Ideal.div (Ideal.div x ((64 : ℝ) : EReal)) ((1 : ℝ) : EReal) = x * ((1 / 64 : ℝ) : EReal) := by
  rw [Ideal.div_coe (by norm_num : (64 : ℝ) ≠ 0), Ideal.div_coe (by norm_num : (1 : ℝ) ≠ 0)]
  simp

/-- The coherence at batch `b`, head `h`, query row `i` and key row `j`. -/
def coherenceAt (q k : (⟨4, ![2, 8, 2048, 64]⟩ : Shape).Idx → EReal) (b : Fin 2) (h : Fin 8) (i j : Fin 2048) : EReal :=
  ((∑ d : Fin 64, Ideal.cos (q (ix4 b h i d)) * Ideal.cos (k (ix4 b h j d)))
    + ∑ d : Fin 64, Ideal.sin (q (ix4 b h i d)) * Ideal.sin (k (ix4 b h j d))) * ((1 / 64 : ℝ) : EReal)

/-- The whole array of coherences, [2, 8, 2048, 2048]. -/
def coherence (q k : (⟨4, ![2, 8, 2048, 64]⟩ : Shape).Idx → EReal) : (⟨4, ![2, 8, 2048, 2048]⟩ : Shape).Idx → EReal :=
  fun x => coherenceAt q k (x 0) (x 1) (x 2) (x 3)

theorem coherence_apply (q k : (⟨4, ![2, 8, 2048, 64]⟩ : Shape).Idx → EReal) (b : Fin 2) (h : Fin 8) (i j : Fin 2048) :
    coherence q k (ix4 b h i j) = coherenceAt q k b h i j := rfl

end Cert.Coherence

end
-- ==== Proof.Consts.lean ====
/-
  The three float words the two programs spell, as the extended reals they denote: the reference divides by
  64.0 and then by 1.0, the kernel multiplies by 0.015625 = 2^-6. All three are dyadic, so each word denotes its
  value exactly.
-/
import Idealize.ShloMosaic.PureOps.Ideal

noncomputable section

namespace Cert.Coherence.Consts

open Idealize.ShloMosaic

/-- The word of 64.0 denotes the real 64. -/
theorem ofBits_64 : Ideal.ofBits .f32 0x42800000#32 = ((64 : ℝ) : EReal) := by
  simp [Ideal.ofBits, Ideal.ieee, -EReal.coe_mul]; norm_num

/-- The word of 1.0 denotes the real 1. -/
theorem ofBits_one : Ideal.ofBits .f32 0x3F800000#32 = ((1 : ℝ) : EReal) := by
  simp [Ideal.ofBits, Ideal.ieee, -EReal.coe_mul]; norm_num

/-- The word of 0.015625 denotes the real 1/64. -/
theorem ofBits_inv64 : Ideal.ofBits .f32 0x3C800000#32 = ((1 / 64 : ℝ) : EReal) := by
  simp [Ideal.ofBits, Ideal.ieee, -EReal.coe_mul]; norm_num

end Cert.Coherence.Consts

end
-- ==== Proof.RefSide.lean ====
/-
  The reference computes the coherence. Its result at (b, h, i, j) is

      ( ( Σ_d cos q[b,h,i,d] · cos k[b,h,j,d]  +  Σ_d sin q[b,h,i,d] · sin k[b,h,j,d] ) / 64 ) / 1 :

  two contractions over the 64 harmonics, batched over b and h, their sum, and the two quotients by constants; the two
  quotients are the product with 1/64.
-/
import proofs.«122102_j90632399880438_2_alg».proof.Proof.Gen.ReferenceIdeal.Read
import proofs.«122102_j90632399880438_2_alg».proof.Proof.Consts
import proofs.«122102_j90632399880438_2_alg».proof.Proof.Coherence

noncomputable section

namespace Cert.ReferenceIdeal.RefValue

open Cert.ReferenceIdeal Cert.ReferenceIdeal.Gen Cert.ReferenceIdeal.Read
open Idealize.ShloMosaic Idealize.ShloMosaic.ValueIdx Cert.Coherence Cert.Coherence.Consts

/-- The left operand of either contraction at output (b, h, i, j) and harmonic d is read at (b, h, i, d). -/
theorem lidx4 (b : Fin 2) (h : Fin 8) (i j : Fin 2048) (d : Fin 64) : lidx_main_v4 (ix4 b h i j) d = ix4 b h i d :=
  funext fun a => Fin.ext (by match a with | ⟨0, _⟩ => rfl | ⟨1, _⟩ => rfl | ⟨2, _⟩ => rfl | ⟨3, _⟩ => rfl)
/-- The right operand is read at (b, h, j, d). -/
theorem ridx4 (b : Fin 2) (h : Fin 8) (i j : Fin 2048) (d : Fin 64) : ridx_main_v4 (ix4 b h i j) d = ix4 b h j d :=
  funext fun a => Fin.ext (by match a with | ⟨0, _⟩ => rfl | ⟨1, _⟩ => rfl | ⟨2, _⟩ => rfl | ⟨3, _⟩ => rfl)
theorem lidx5 (b : Fin 2) (h : Fin 8) (i j : Fin 2048) (d : Fin 64) : lidx_main_v5 (ix4 b h i j) d = ix4 b h i d :=
  funext fun a => Fin.ext (by match a with | ⟨0, _⟩ => rfl | ⟨1, _⟩ => rfl | ⟨2, _⟩ => rfl | ⟨3, _⟩ => rfl)
theorem ridx5 (b : Fin 2) (h : Fin 8) (i j : Fin 2048) (d : Fin 64) : ridx_main_v5 (ix4 b h i j) d = ix4 b h j d :=
  funext fun a => Fin.ext (by match a with | ⟨0, _⟩ => rfl | ⟨1, _⟩ => rfl | ⟨2, _⟩ => rfl | ⟨3, _⟩ => rfl)

/-- The reference's result, as a function of its two arguments, is the coherence. -/
theorem reference_eq (x0 x1 : (⟨S2x8x2048x64, .f32⟩ : BufTy).Contents (Elt Ideal)) :
    val_main_v10 (F := Ideal) x0 x1 = coherence x0 x1 := by
  funext x
  obtain ⟨b, h, i, j, rfl⟩ : ∃ (b : Fin 2) (h : Fin 8) (i j : Fin 2048), x = ix4 b h i j := ⟨x 0, x 1, x 2, x 3, eq_ix4 x⟩
  rw [coherence_apply, val_main_v10_apply, val_main_v8_apply, val_main_v6_apply, val_main_v4_apply, val_main_v5_apply,
    val_main_v9_apply, val_main_v7_apply, val_main_cst_0_apply, val_main_cst_apply]
  simp only [val_main_v0_apply, val_main_v1_apply, val_main_v2_apply, val_main_v3_apply, lidx4, ridx4, lidx5, ridx5,
    Ideal.hostDivf_def, Ideal.addf_def, Ideal.hostUnary_cos_def, Ideal.hostUnary_sin_def, Ideal.ofBits_def, ofBits_64, ofBits_one]
  rw [div_64_div_one]
  rfl

end Cert.ReferenceIdeal.RefValue

end
-- ==== Proof.Prefix.lean ====
/-
  What the region finds in its two input arrays. Before the region the host takes the cosines and the sines of a phase
  array x of shape [2, 8, 2048, 64], lays them side by side along the last axis (128 wide: 64 cosines, then 64 sines),
  changes the float format (the identity on the extended reals) and views batch and head as one axis of 16. So row i of
  slab g = 8·b + h of the table is the glued row  cos x[b,h,i,·] , sin x[b,h,i,·].
-/
import proofs.«122102_j90632399880438_2_alg».proof.Proof.Gen.KernelIdeal.Frame
import proofs.«122102_j90632399880438_2_alg».proof.Proof.Coherence
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx Cert.Coherence

/-- The table the host builds from a phase array: cosines and sines side by side, batch and head as one axis. -/
def table (x : FVec Ideal S2x8x2048x64 .f32) : FVec Ideal S16x2048x128 .bf16 :=
  shapeCast S16x2048x128
    (truncf .bf16 (concatenate S2x8x2048x128 3 [⟨S2x8x2048x64, Host.cos (F := Ideal) x⟩, ⟨S2x8x2048x64, Host.sin (F := Ideal) x⟩]
      concatenates_S2x8x2048x64_S2x8x2048x64_S2x8x2048x128_d3) bitsLt_bf16_f32)
    shapeCasts_S2x8x2048x128_S16x2048x128

/-- The table at slab g = 8·b + h, row i, column c: the glued row of cosines and sines of x[b,h,i,·] at c. -/
theorem table_apply (x : FVec Ideal S2x8x2048x64 .f32) (g : Fin 16) (b : Fin 2) (h : Fin 8) (hg : g.val = b.val * 8 + h.val)
    (i : Fin 2048) (c : Fin 128) :
    table x (ix3 g i c) = glue (fun d => Ideal.cos (x (ix4 b h i d))) (fun d => Ideal.sin (x (ix4 b h i d))) c := by
  unfold table
  refine (shapeCast_apply _ shapeCasts_S2x8x2048x128_S16x2048x128 (ix3 g i c) (ix4 b h i c) ?_).trans ?_
  · rw [Shape.rowMajor_val_four, Shape.rowMajor_val_three]
    show ((b.val * 8 + h.val) * 2048 + i.val) * 128 + c.val = (g.val * 2048 + i.val) * 128 + c.val
    rw [hg]
  refine (truncf_apply _ bitsLt_bf16_f32 (ix4 b h i c)).trans ?_
  unfold glue
  by_cases hc : c.val < 64
  · rw [dif_pos hc]
    refine (concatenate_pair_apply_left 3 _ _ concatenates_S2x8x2048x64_S2x8x2048x64_S2x8x2048x128_d3 (ix4 b h i c) rfl
      (ix4 b h i ⟨c.val, hc⟩) ?_).trans ?_
    · intro a
      match a with
      | ⟨0, _⟩ => rfl
      | ⟨1, _⟩ => rfl
      | ⟨2, _⟩ => rfl
      | ⟨3, _⟩ => rfl
    · rfl
  · rw [dif_neg hc]
    refine (concatenate_pair_apply_right 3 _ _ concatenates_S2x8x2048x64_S2x8x2048x64_S2x8x2048x128_d3 (ix4 b h i c) rfl rfl
      (ix4 b h i ⟨c.val - 64, by have := c.isLt; omega⟩) ?_ ?_).trans ?_
    · intro a ha
      match a, ha with
      | ⟨0, _⟩, _ => rfl
      | ⟨1, _⟩, _ => rfl
      | ⟨2, _⟩, _ => rfl
      | ⟨3, _⟩, ha => exact absurd rfl ha
    · show c.val - 64 + 64 = c.val
      omega
    · rfl

variable (m : (ℓ : Loc nD τ sig) → Buf (Elt Ideal) ℓ)

/-- The query table is what the host operations before the region leave in the first input array. -/
theorem entry_q (c : Dev nD) : (V m c main_v8 : S16x2048x128.Idx → EReal) = table (m ((c : Thread nD τ).loc main_arg0)) := by
  show StableHlo.after hostOps0 (fun b => m (c, b)) (Proc.devRef .tc main_v8) = _
  after_results
  rfl

/-- The key table is what they leave in the second. -/
theorem entry_k (c : Dev nD) : (V m c main_v9 : S16x2048x128.Idx → EReal) = table (m ((c : Thread nD τ).loc main_arg1)) := by
  show StableHlo.after hostOps0 (fun b => m (c, b)) (Proc.devRef .tc main_v9) = _
  after_results
  rfl

end Cert.KernelIdeal.Hand

end
-- ==== Proof.Payload.lean ====
/-
  What the kernel body stores, entry by entry. The body loads a block of 1024 query rows and a block of 2048 key rows,
  each row 128 wide, and stores, at query row p and key row j of the block,

      ( Σ_{c < 128} Q[p, c] · K[j, c] ) · 1/64 :

  one contraction of the 128-wide axis of both blocks into a zero accumulator, scaled by the constant 2^-6.
-/
import proofs.«122102_j90632399880438_2_alg».proof.Proof.Gen.KernelIdeal.Skeleton
import proofs.«122102_j90632399880438_2_alg».proof.Proof.Consts
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx Cert.Coherence.Consts

/-- The contraction's dimensions: axis 1 of the query block against axis 1 of the key block, no batch axis. -/
abbrev qk : DotDims S1024x128 S2048x128 S1024x2048 := dot_S1024x128_S2048x128_S1024x2048_1_1_0_0_n_n

theorem qk_lhs0 (y : S1024x2048.Idx) (c : qk.contr.Idx) : (qk.lhsIdx y c 0).val = (y 0).val := by
  unfold DotDims.lhsIdx
  rw [dif_neg (show ¬(0 : Fin S1024x128.rank) ∈ qk.lhsBatch by decide), dif_pos (show (0 : Fin S1024x128.rank) ∈ qk.lhsNonContracting by decide)]
  rfl
theorem qk_lhs1 (y : S1024x2048.Idx) (c : qk.contr.Idx) : (qk.lhsIdx y c 1).val = (c ⟨0, by decide⟩).val :=
  qk.lhsIdx_val_of_single rfl y c
theorem qk_rhs0 (y : S1024x2048.Idx) (c : qk.contr.Idx) : (qk.rhsIdx y c 0).val = (y 1).val := by
  unfold DotDims.rhsIdx
  rw [dif_neg (show ¬(0 : Fin S2048x128.rank) ∈ qk.rhsBatch by decide), dif_pos (show (0 : Fin S2048x128.rank) ∈ qk.rhsNonContracting by decide)]
  rfl
theorem qk_rhs1 (y : S1024x2048.Idx) (c : qk.contr.Idx) : (qk.rhsIdx y c 1).val = (c ⟨0, by decide⟩).val :=
  qk.rhsIdx_val_of_single rfl y c

/-- The contraction into a zero accumulator, at query row p and key row j: the sum over the 128 columns. -/
theorem contraction_apply (a : FVec Ideal S1024x128 .bf16) (b : FVec Ideal S2048x128 .bf16) (p : Fin 1024) (j : Fin 2048) :
    matmul qk none a b (constant (F := Ideal) S1024x2048 .f32 0x00000000#32) (ix2 p j) = ∑ c : Fin 128, a (ix2 p c) * b (ix2 j c) := by
  refine (Ideal.matmul_constant_zero_apply qk none a b (ix2 p j)).trans ?_
  rw [← Equiv.sum_comp (contrEquiv1 qk 128 rfl rfl).symm]
  refine Finset.sum_congr rfl fun c _ => ?_
  have hc := contrEquiv1_symm_val qk 128 rfl rfl c
  have el : qk.lhsIdx (ix2 p j) ((contrEquiv1 qk 128 rfl rfl).symm c) = ix2 p c := funext fun a => Fin.ext (by
    match a with
    | ⟨0, _⟩ => exact qk_lhs0 _ _
    | ⟨1, _⟩ => exact (qk_lhs1 _ _).trans hc)
  have er : qk.rhsIdx (ix2 p j) ((contrEquiv1 qk 128 rfl rfl).symm c) = ix2 j c := funext fun a => Fin.ext (by
    match a with
    | ⟨0, _⟩ => exact qk_rhs0 _ _
    | ⟨1, _⟩ => exact (qk_rhs1 _ _).trans hc)
  rw [el, er]

/-- The stored block at (0, p, j). -/
theorem payload_apply (x0 : FVec Ideal S1x1024x128 .bf16) (x1 : FVec Ideal S1x2048x128 .bf16) (u : Fin 1) (p : Fin 1024) (j : Fin 2048) :
    k0_pay1 (F := Ideal) x0 x1 (ix3 u p j)
      = (∑ c : Fin 128, x0 (ix3 (0 : Fin 1) p c) * x1 (ix3 (0 : Fin 1) j c)) * ((1 / 64 : ℝ) : EReal) := by
  unfold k0_pay1
  refine (shapeCast_apply _ shapeCasts_S1024x2048_S1x1024x2048 (ix3 u p j) (ix2 p j) ?_).trans ?_
  · rw [Shape.rowMajor_val_two, Shape.rowMajor_val_three]
    show p.val * 2048 + j.val = (u.val * 1024 + p.val) * 2048 + j.val
    have := u.isLt; omega
  refine (mulf_apply _ _ (ix2 p j)).trans ?_
  refine congrArg₂ (· * ·) ?_ ?_
  · refine (contraction_apply _ _ p j).trans ?_
    refine Finset.sum_congr rfl fun c _ => congrArg₂ (· * ·) ?_ ?_
    · refine shapeCast_apply x0 shapeCasts_S1x1024x128_S1024x128 (ix2 p c) (ix3 (0 : Fin 1) p c) ?_
      rw [Shape.rowMajor_val_two, Shape.rowMajor_val_three]
      show ((0 : Fin 1).val * 1024 + p.val) * 128 + c.val = p.val * 128 + c.val
      simp
    · refine shapeCast_apply x1 shapeCasts_S1x2048x128_S2048x128 (ix2 j c) (ix3 (0 : Fin 1) j c) ?_
      rw [Shape.rowMajor_val_two, Shape.rowMajor_val_three]
      show ((0 : Fin 1).val * 2048 + j.val) * 128 + c.val = j.val * 128 + c.val
      simp
  · show Ideal.ofBits .f32 0x3C800000#32 = _
    exact ofBits_inv64

end Cert.KernelIdeal.Hand

end
-- ==== Proof.Blocks.lean ====
/-
  The region's output array as one function of its two input tables. The grid has 16 × 2 points: point (g, r) loads
  rows 1024·r … 1024·r + 1023 of slab g of the query table and all 2048 rows of slab g of the key table, and writes back
  rows 1024·r … 1024·r + 1023 of slab g of the output. With the body's entry (Σ_c Q[p,c] · K[j,c]) · 1/64, the output at
  (g, i, j) is the contraction of row i of the query slab with row j of the key slab, scaled; the 32 blocks tile the array,
  so after the run the array is that function everywhere.
-/
import proofs.«122102_j90632399880438_2_alg».proof.Proof.Gen.KernelIdeal.Frame
import proofs.«122102_j90632399880438_2_alg».proof.Proof.Payload
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero3 : (![0, 0, 0] : Fin 3 → Nat) = fun _ => 0 := funext fun a => by fin_cases a <;> rfl

/-- Row i of slab g of A against row j of slab g of B, over the 128 columns, scaled by 1/64. -/
def scoresAt (A B : S16x2048x128.Idx → EReal) (g : Fin 16) (i j : Fin 2048) : EReal :=
  (∑ c : Fin 128, A (ix3 g i c) * B (ix3 g j c)) * ((1 / 64 : ℝ) : EReal)

/-- The [16, 2048, 2048] array of those. -/
def scores (A B : S16x2048x128.Idx → EReal) : S16x2048x2048.Idx → EReal := fun y => scoresAt A B (y 0) (y 1) (y 2)

/-- The three index maps over the grid: the query block and the output block move together on slab and row block,
    the key block on the slab only; every other block index is zero. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 15 ∧ win0_2.index t (1 : Fin 3) ≤ 1 :=
  (by decide +kernel : ∀ t : Fin grid0.N, _)

/-- Every (slab, row block) is some point's output block. -/
theorem idx_onto : ∀ (g : Fin 16) (r : Fin 2), ∃ t : Fin cfg0.N, win0_2.index t = ![g.val, r.val, 0] :=
  (by decide +kernel : ∀ (g : Fin 16) (r : Fin 2), ∃ t : Fin grid0.N, win0_2.index t = ![g.val, r.val, 0])

/-- The query block at point t is the query table read at block index × block size + the coordinate in the block. -/
theorem qblock_apply (c : Dev nD) (t : Fin cfg0.N) (x : S1x1024x128.Idx) (K : S16x2048x128.Idx)
    (h0 : (K 0).val = win0_0.index t (0 : Fin 3) + (x 0).val)
    (h1 : (K 1).val = win0_0.index t (1 : Fin 3) * 1024 + (x 1).val)
    (h2 : (K 2).val = win0_0.index t (2 : Fin 3) * 128 + (x 2).val) :
    (iblk m c 0 t : Vec Ideal S1x1024x128 .bf16) x = (V m c main_v8 : S16x2048x128.Idx → EReal) K := by
  unfold iblk
  rw [View.read_apply]
  show V m c main_v8 _ = V m c main_v8 _
  congr 1
  funext a
  apply Fin.ext
  match a with
  | ⟨0, _⟩ => show win0_0.index t (0 : Fin 3) * 1 + 1 * (x 0).val = (K 0).val; omega
  | ⟨1, _⟩ => show win0_0.index t (1 : Fin 3) * 1024 + 1 * (x 1).val = (K 1).val; omega
  | ⟨2, _⟩ => show win0_0.index t (2 : Fin 3) * 128 + 1 * (x 2).val = (K 2).val; omega

/-- The key block likewise. -/
theorem kblock_apply (c : Dev nD) (t : Fin cfg0.N) (x : S1x2048x128.Idx) (K : S16x2048x128.Idx)
    (h0 : (K 0).val = win0_1.index t (0 : Fin 3) + (x 0).val)
    (h1 : (K 1).val = win0_1.index t (1 : Fin 3) * 2048 + (x 1).val)
    (h2 : (K 2).val = win0_1.index t (2 : Fin 3) * 128 + (x 2).val) :
    (iblk m c 1 t : Vec Ideal S1x2048x128 .bf16) x = (V m c main_v9 : S16x2048x128.Idx → EReal) K := by
  unfold iblk
  rw [View.read_apply]
  show V m c main_v9 _ = V m c main_v9 _
  congr 1
  funext a
  apply Fin.ext
  match a with
  | ⟨0, _⟩ => show win0_1.index t (0 : Fin 3) * 1 + 1 * (x 0).val = (K 0).val; omega
  | ⟨1, _⟩ => show win0_1.index t (1 : Fin 3) * 2048 + 1 * (x 1).val = (K 1).val; omega
  | ⟨2, _⟩ => show win0_1.index t (2 : Fin 3) * 128 + 1 * (x 2).val = (K 2).val; omega

/-- What the body stores at y of point t's block is `scores` of the two tables at the array index Y under y. -/
theorem block_eq (c : Dev nD) (t : Fin cfg0.N) (y : S1x1024x2048.Idx) (Y : S16x2048x2048.Idx)
    (h0 : (Y 0).val = win0_2.index t (0 : Fin 3) + (y 0).val)
    (h1 : (Y 1).val = win0_2.index t (1 : Fin 3) * 1024 + (y 1).val)
    (h2 : (Y 2).val = win0_2.index t (2 : Fin 3) * 2048 + (y 2).val) :
    k0_pay1 (F := Ideal) (iblk m c 0 t) (iblk m c 1 t) y = scores (V m c main_v8) (V m c main_v9) Y := by
  obtain ⟨u, p, j, rfl⟩ : ∃ (u : Fin 1) (p : Fin 1024) (j : Fin 2048), y = ix3 u p j := ⟨y 0, y 1, y 2, eq_ix3 y⟩
  obtain ⟨g, I, J, rfl⟩ : ∃ (g : Fin 16) (I J : Fin 2048), Y = ix3 g I J := ⟨Y 0, Y 1, Y 2, eq_ix3 Y⟩
  obtain ⟨e00, e01, e02, e10, e11, e12, e22, -, -⟩ := idx_facts t
  have hu : u.val = 0 := by have := u.isLt; omega
  have h0' : g.val = win0_2.index t (0 : Fin 3) + u.val := h0
  have h1' : I.val = win0_2.index t (1 : Fin 3) * 1024 + p.val := h1
  have h2' : J.val = win0_2.index t (2 : Fin 3) * 2048 + j.val := h2
  refine (payload_apply (iblk m c 0 t) (iblk m c 1 t) u p j).trans ?_
  show _ = scoresAt (V m c main_v8) (V m c main_v9) g I J
  unfold scoresAt
  refine congrArg (· * ((1 / 64 : ℝ) : EReal)) (Finset.sum_congr rfl fun k _ => ?_)
  refine congrArg₂ (· * ·) ?_ ?_
  · refine qblock_apply m c t (ix3 (0 : Fin 1) p k) (ix3 g I k) ?_ ?_ ?_
    · show g.val = win0_0.index t (0 : Fin 3) + 0; omega
    · show I.val = win0_0.index t (1 : Fin 3) * 1024 + p.val; omega
    · show k.val = win0_0.index t (2 : Fin 3) * 128 + k.val; omega
  · refine kblock_apply m c t (ix3 (0 : Fin 1) j k) (ix3 g J k) ?_ ?_ ?_
    · show g.val = win0_1.index t (0 : Fin 3) + 0; omega
    · show J.val = win0_1.index t (1 : Fin 3) * 2048 + j.val; omega
    · show k.val = win0_1.index t (2 : Fin 3) * 128 + k.val; omega

/-- What point t writes back is block t of `scores` of the two tables as the region finds them. -/
theorem flushed_eq (c : Dev nD) (t : Fin cfg0.N) :
    (dats m 0 c).flushed 2 t = ((cfg0.win 2).blk t).view.read (Elt Ideal) (scores (V m c main_v8) (V m c main_v9)) := by
  show (cfg0.win 2).cut (grid0.coords t) ((dats m 0 c).after 2 t) = _
  rw [after0_2]
  unfold out0_2
  rw [View.canon_unit_zero zero3]
  simp only [View.ld_unit_zero (S := S1x1024x128) zero3, View.ld_unit_zero (S := S1x2048x128) zero3]
  funext y
  show k0_pay1 (F := Ideal) (iblk m c 0 t) (iblk m c 1 t) y
    = scores (V m c main_v8) (V m c main_v9) (((cfg0.win 2).blk t).view.emb y)
  refine block_eq m c t y _ ?_ ?_ ?_
  · show win0_2.index t (0 : Fin 3) * 1 + 1 * (y 0).val = win0_2.index t (0 : Fin 3) + (y 0).val; omega
  · show win0_2.index t (1 : Fin 3) * 1024 + 1 * (y 1).val = win0_2.index t (1 : Fin 3) * 1024 + (y 1).val; omega
  · show win0_2.index t (2 : Fin 3) * 2048 + 1 * (y 2).val = win0_2.index t (2 : Fin 3) * 2048 + (y 2).val; omega

/-- An index of the output array is in point t's block iff each coordinate is in the block's range on its axis. -/
theorem mem_blk (t : Fin cfg0.N) (i : S16x2048x2048.Idx) :
    i ∈ ((cfg0.win 2).blk t).view.set ↔ ∀ a : Fin 3, win0_2.index t a * S1x1024x2048.size a ≤ (i a).val
      ∧ (i a).val < win0_2.index t a * S1x1024x2048.size a + S1x1024x2048.size a := by
  show i ∈ ((View.whole main_v10).slice (win0_2.rect t)).set ↔ _
  rw [View.set_slice_whole, Rect.mem_set_unit]
  exact Iff.rfl

/-- Every index (g, i, j) is in the block of the point at slab g and row block i / 1024. -/
theorem cover (i : S16x2048x2048.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 2048 ≤ (i 2).val ∧ (i 2).val < win0_2.index t (2 : Fin 3) * 2048 + 2048; omega

/-- The output array after the run is `scores` of the two tables. -/
theorem final (c : Dev nD) : (dats m 0 c).arrAt 2 cfg0.N = scores (V m c main_v8) (V m c main_v9) :=
  (dats m 0 c).arrAt_eq_of_cover 2 (scores (V m c main_v8) (V m c main_v9)) (fun t _ => flushed_eq m c t) cover

end Cert.KernelIdeal.Hand

end
-- ==== Proof.Tail.lean ====
/-
  The kernel program's result. After the region the host views the [16, 2048, 2048] output as [2, 8, 2048, 2048]: entry
  (b, h, i, j) of the result is entry (8·b + h, i, j) of the region's output, which contracts row i of slab 8·b + h of the
  query table with row j of the same slab of the key table over their 128 columns and scales by 1/64. Those rows are the
  cosines and sines of q[b,h,i,·] and of k[b,h,j,·] side by side, so the 128 products are the 64 cosine products and the 64
  sine products: the result is the coherence of the two phase arrays.
-/
import proofs.«122102_j90632399880438_2_alg».proof.Proof.Gen.KernelIdeal.Frame
import proofs.«122102_j90632399880438_2_alg».proof.Proof.Coherence
import proofs.«122102_j90632399880438_2_alg».proof.Proof.Prefix
import proofs.«122102_j90632399880438_2_alg».proof.Proof.Blocks
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx Cert.Coherence
open Idealize.ShloMosaic.Pipeline (Dat)

variable (m : (ℓ : Loc nD τ sig) → Buf (Elt Ideal) ℓ) (ρ : Dev nD → PrngReg)

/-- What the host line after the region leaves in the result: the region's output array viewed [2, 8, 2048, 2048]. -/
theorem tail_eq (c : Dev nD) :
    (Pipeline.afterTail₀ cfgs (dats m) 0 (V0 m) [hostOps1] c main_v11 : S2x8x2048x2048.Idx → EReal)
      = shapeCast S2x8x2048x2048 (scores (V m c main_v8) (V m c main_v9)) shapeCasts_S16x2048x2048_S2x8x2048x2048 := by
  have e := (Pipeline.withArrays_arr spec0 launch0.win.arr_inj c (V0 m c) (fun w => (dats m 0 c).arrAt w cfg0.N) 2).trans (final m c)
  unfold Pipeline.afterTail₀
  show StableHlo.after hostOps1 _ (Proc.devRef .tc main_v11) = _
  after_results
  rw [e]
  rfl

/-- That view at (b, h, i, j) reads slab g = 8·b + h at (i, j). -/
theorem view_apply (A : S16x2048x2048.Idx → EReal) (b : Fin 2) (h : Fin 8) (i j : Fin 2048) (g : Fin 16)
    (hg : g.val = b.val * 8 + h.val) :
    shapeCast S2x8x2048x2048 A shapeCasts_S16x2048x2048_S2x8x2048x2048 (ix4 b h i j) = A (ix3 g i j) := by
  refine shapeCast_apply A shapeCasts_S16x2048x2048_S2x8x2048x2048 (ix4 b h i j) (ix3 g i j) ?_
  rw [Shape.rowMajor_val_three, Shape.rowMajor_val_four]
  show (g.val * 2048 + i.val) * 2048 + j.val = ((b.val * 8 + h.val) * 2048 + i.val) * 2048 + j.val
  rw [hg]

/-- The scaled contraction of two rows of the tables built from q and k is the coherence of q and k. -/
theorem scores_table (q k : FVec Ideal S2x8x2048x64 .f32) (b : Fin 2) (h : Fin 8) (i j : Fin 2048) (g : Fin 16)
    (hg : g.val = b.val * 8 + h.val) :
    scoresAt (table q) (table k) g i j = coherenceAt q k b h i j := by
  unfold scoresAt coherenceAt
  simp only [table_apply q g b h hg, table_apply k g b h hg]
  rw [sum_glue]

/-- The kernel program's result is the coherence of its two arguments. -/
theorem kernel_value (c : Dev nD) :
    (Pipeline.afterTail₀ cfgs (dats m) 0 (V0 m) [hostOps1] c main_v11 : S2x8x2048x2048.Idx → EReal)
      = coherence (m ((c : Thread nD τ).loc main_arg0)) (m ((c : Thread nD τ).loc main_arg1)) := by
  rw [tail_eq, entry_q, entry_k]
  funext x
  obtain ⟨b, h, i, j, rfl⟩ : ∃ (b : Fin 2) (h : Fin 8) (i j : Fin 2048), x = ix4 b h i j := ⟨x 0, x 1, x 2, x 3, eq_ix4 x⟩
  have hlt : b.val * 8 + h.val < 16 := by have := b.isLt; have := h.isLt; omega
  rw [view_apply _ b h i j ⟨b.val * 8 + h.val, hlt⟩ rfl, coherence_apply]
  exact scores_table _ _ b h i j ⟨b.val * 8 + h.val, hlt⟩ rfl

/-- The kernel program's run: it terminates with the result at the coherence of the arguments, the arguments unchanged. -/
theorem run : θ_run defs (onTc (τ := τ) (main (F := Ideal))) ⟨m, fun _ => 0, ρ⟩ fun r => ∀ c : Dev nD,
      r.2.mem ((c : Thread nD τ).loc main_v11)
        = coherence (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v11 (Pipeline.mem_restRefs_of main_v11 (by decide) (by decide))).trans (kernel_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.lean ====
/-
  Pairwise phase coherence, kernel against reference, on the extended reals.

  For phase arrays q, k of shape [2, 8, 2048, 64] both programs compute, at (b, h, i, j),

      ( Σ_d cos q[b,h,i,d] · cos k[b,h,j,d]  +  Σ_d sin q[b,h,i,d] · sin k[b,h,j,d] ) · 1/64     (d over 64 harmonics).

  The reference contracts the cosines and the sines separately, adds, and divides by 64 and by 1. The kernel program lays
  the cosines and sines of each row side by side (128 wide), contracts that one axis block by block on a 16 × 2 grid, scales
  by 2^-6 and views the [16, 2048, 2048] output as [2, 8, 2048, 2048]. The 128 products of two such rows are the 64 cosine
  products followed by the 64 sine products, and dividing by 64 and by 1 is multiplying by 1/64 on every extended real;
  only associativity and commutativity of the sum are used, so the finiteness of the phases is never opened.
  The idealized kernel is the kernel's own text read on the extended reals (no operation was rewritten), so there is nothing
  to preserve beyond that; the three programs run to completion leaving their arguments as they were.
-/
import proofs.«122102_j90632399880438_2_alg».proof.Defs
import proofs.«122102_j90632399880438_2_alg».proof.Proof.Gen.Kernel
import proofs.«122102_j90632399880438_2_alg».proof.Proof.Gen.Kernel.Skeleton
import proofs.«122102_j90632399880438_2_alg».proof.Proof.Gen.Kernel.Launch
import proofs.«122102_j90632399880438_2_alg».proof.Proof.Gen.Kernel.Points
import proofs.«122102_j90632399880438_2_alg».proof.Proof.Gen.Kernel.Frame
import proofs.«122102_j90632399880438_2_alg».proof.Proof.Gen.KernelIdeal
import proofs.«122102_j90632399880438_2_alg».proof.Proof.Gen.KernelIdeal.Skeleton
import proofs.«122102_j90632399880438_2_alg».proof.Proof.Gen.KernelIdeal.Launch
import proofs.«122102_j90632399880438_2_alg».proof.Proof.Gen.KernelIdeal.Points
import proofs.«122102_j90632399880438_2_alg».proof.Proof.Gen.KernelIdeal.Frame
import proofs.«122102_j90632399880438_2_alg».proof.Proof.Gen.ReferenceIdeal
import proofs.«122102_j90632399880438_2_alg».proof.Proof.Gen.ReferenceIdeal.Run
import proofs.«122102_j90632399880438_2_alg».proof.Proof.Gen.ReferenceIdeal.Read
import proofs.«122102_j90632399880438_2_alg».proof.Proof.Gen.Pre_finite_inputs
import proofs.«122102_j90632399880438_2_alg».proof.Proof.Coherence
import proofs.«122102_j90632399880438_2_alg».proof.Proof.RefSide
import proofs.«122102_j90632399880438_2_alg».proof.Proof.Tail
import Idealize.ShloMosaic.Adequacy
import Idealize.ShloMosaic.Init

noncomputable section

namespace Cert.Proof

open Idealize.ShloMosaic Idealize.ShloMosaic.TcCoe Idealize.SL.Sem

/-- The kernel program terminates without a fault and leaves its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten, so nothing is to be preserved. -/
theorem preserves : Cert.preserves_Kernel_KernelIdeal := trivial

/-- From memories that agree on the two phase arrays, both programs end with the coherence of those arrays. -/
theorem algebraic : Cert.algebraic_KernelIdeal_ReferenceIdeal := by
  intro m ρ m' ρ' _ hagree
  refine ⟨fun c => Cert.Coherence.coherence
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
